-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x32 : Shape := ⟨2, ![524288, 32]⟩
abbrev S55296 : Shape := ⟨1, ![55296]⟩
abbrev S_ : Shape := ⟨0, ![]⟩

class Facts : Prop where
  bcast_S_S524288x32 : S_.BroadcastsInDim S524288x32 (![] : Fin 0 → Fin S524288x32.rank)
  reducesTo_S524288x32_S_d0_1 : S524288x32.ReducesTo [0, 1] S_
  h_S_ : 0 < S_.numel
  bcast_S_S55296 : S_.BroadcastsInDim S55296 (![] : Fin 0 → Fin S55296.rank)
  reducesTo_S55296_S_d0 : S55296.ReducesTo [0] S_

variable [Facts]

def fn {F : FTy → Type} [FloatOps F] (main_arg0 : FVec F S524288x32 .f32) (main_arg1 : FVec F S55296 .f32) : IVec S_ 1 :=
  let main_v0 : FVec F S524288x32 .f32 := Host.absf main_arg0
  let main_cst : FVec F S_ .f32 := constant S_ .f32 0x7F800000#32
  let main_v1 : FVec F S524288x32 .f32 := broadcastInDim S524288x32 ![] bcast_S_S524288x32 main_cst
  let main_v2 : IVec S524288x32 1 := cmpf .olt main_v0 main_v1
  let main_c : IVec S_ 1 := constantI S_ 1 1#1
  let main_v3 : IVec S_ 1 := (fun x v => Host.reduce IntOp.andi x v reducesTo_S524288x32_S_d0_1 h_S_) main_v2 main_c
  let main_v4 : FVec F S55296 .f32 := Host.absf main_arg1
  let main_cst_0 : FVec F S_ .f32 := constant S_ .f32 0x7F800000#32
  let main_v5 : FVec F S55296 .f32 := broadcastInDim S55296 ![] bcast_S_S55296 main_cst_0
  let main_v6 : IVec S55296 1 := cmpf .olt main_v4 main_v5
  let main_c_1 : IVec S_ 1 := constantI S_ 1 1#1
  let main_v7 : IVec S_ 1 := (fun x v => Host.reduce IntOp.andi x v reducesTo_S55296_S_d0 h_S_) main_v6 main_c_1
  let main_v8 : IVec S_ 1 := andi main_v3 main_v7
  main_v8
-- ==== Kernel.lean ====
abbrev S524288x32 : Shape := ⟨2, ![524288, 32]⟩
abbrev S55296 : Shape := ⟨1, ![55296]⟩
abbrev S4096 : Shape := ⟨1, ![4096]⟩
abbrev S128x32 : Shape := ⟨2, ![128, 32]⟩
abbrev S16384 : Shape := ⟨1, ![16384]⟩
abbrev S128x128 : Shape := ⟨2, ![128, 128]⟩
abbrev S2048 : Shape := ⟨1, ![2048]⟩
abbrev S16x128 : Shape := ⟨2, ![16, 128]⟩
abbrev S524288x16 : Shape := ⟨2, ![524288, 16]⟩
abbrev S16384x32 : Shape := ⟨2, ![16384, 32]⟩
abbrev S16384x16 : Shape := ⟨2, ![16384, 16]⟩
abbrev S4096x32 : Shape := ⟨2, ![4096, 32]⟩
abbrev S4096x128 : Shape := ⟨2, ![4096, 128]⟩
abbrev S4096x16 : Shape := ⟨2, ![4096, 16]⟩

abbrev nBuf : Space → Nat
  | .hbm => 13
  | .vmem => 9
  | .smem => 0
  | _ => 0

abbrev bufTy : (tb : Table) → Fin (tcTables nBuf tb) → BufTy
  | .hbm, ⟨0, _⟩ => ⟨S524288x32, .f32⟩
  | .hbm, ⟨1, _⟩ => ⟨S55296, .f32⟩
  | .hbm, ⟨2, _⟩ => ⟨S4096, .f32⟩
  | .hbm, ⟨3, _⟩ => ⟨S128x32, .f32⟩
  | .hbm, ⟨4, _⟩ => ⟨S16384, .f32⟩
  | .hbm, ⟨5, _⟩ => ⟨S128x128, .f32⟩
  | .hbm, ⟨6, _⟩ => ⟨S16384, .f32⟩
  | .hbm, ⟨7, _⟩ => ⟨S128x128, .f32⟩
  | .hbm, ⟨8, _⟩ => ⟨S16384, .f32⟩
  | .hbm, ⟨9, _⟩ => ⟨S128x128, .f32⟩
  | .hbm, ⟨10, _⟩ => ⟨S2048, .f32⟩
  | .hbm, ⟨11, _⟩ => ⟨S16x128, .f32⟩
  | .hbm, ⟨12, _⟩ => ⟨S524288x16, .f32⟩
  | .local _ .vmem, ⟨0, _⟩ => ⟨S16384x32, .f32⟩
  | .local _ .vmem, ⟨1, _⟩ => ⟨S16384x32, .f32⟩
  | .local _ .vmem, ⟨2, _⟩ => ⟨S128x32, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S16x128, .f32⟩
  | .local _ .vmem, ⟨7, _⟩ => ⟨S16384x16, .f32⟩
  | .local _ .vmem, ⟨8, _⟩ => ⟨S16384x16, .f32⟩
  | _, _ => ⟨S524288x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v15 : BitVec 32 := Scalar.addi c0_i32 c4_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c4096_i32 : BitVec 32 := 4096#32
  let v16 : BitVec 32 := Scalar.muli arg8 c4096_i32
  v16
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c4096_i32 : BitVec 32 := 4096#32
  let v16 : BitVec 32 := Scalar.muli arg8 c4096_i32
  let v17 : BitVec 32 := v16
  let v18 : Index := Scalar.indexCast v17
  let c0_10 : Index := 0#32
  ![v18.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c4096_i32 : BitVec 32 := 4096#32
  let v16 : BitVec 32 := Scalar.muli arg8 c4096_i32
  let v17 : BitVec 32 := v16
  let v38 : Index := Scalar.indexCast v17
  let c0_19 : Index := 0#32
  ![v38.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16384x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S55296_S4096_0 : S55296.Slices ![0] S4096
  shapeCasts_S4096_S128x32 : S4096.ShapeCasts S128x32
  slices_S55296_S16384_4096 : S55296.Slices ![4096] S16384
  shapeCasts_S16384_S128x128 : S16384.ShapeCasts S128x128
  slices_S55296_S16384_20480 : S55296.Slices ![20480] S16384
  slices_S55296_S16384_36864 : S55296.Slices ![36864] S16384
  slices_S55296_S2048_53248 : S55296.Slices ![53248] S2048
  shapeCasts_S2048_S16x128 : S2048.ShapeCasts S16x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  h_S4096x32 : 0 < S4096x32.numel
  h_S4096x16 : 0 < S4096x16.numel
  dot_S4096x32_S128x32_S4096x128_1_1_0_0_n_n_wf : DotDims.WF S4096x32 S128x32 S4096x128 [1] [1] [0] [0] [] []
  dot_S4096x128_S128x128_S4096x128_1_1_0_0_n_n_wf : DotDims.WF S4096x128 S128x128 S4096x128 [1] [1] [0] [0] [] []
  dot_S4096x128_S16x128_S4096x16_1_1_0_0_n_n_wf : DotDims.WF S4096x128 S16x128 S4096x16 [1] [1] [0] [0] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S4096x32.size a ≤ S16384x32.size a
  k0_off2_inb : ∀ k0_t1 : Fin k0_t1_loop.trips, ∀ a, (k0_off2 k0_t1) a + S4096x16.size a ≤ S16384x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x32.size a ≤ S524288x32.size a
  hwx0_0 : ∀ i : grid0.Coords, EltTy.bits .f32 = 32 ∨ (Rect.block (s := S524288x32) S16384x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S16x128.size a
  hwx0_5 : ∀ i : grid0.Coords, EltTy.bits .f32 = 32 ∨ (Rect.block (s := S16x128) S16x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16384x16.size a ≤ S524288x16.size a
  hwx0_6 : ∀ i : grid0.Coords, EltTy.bits .f32 = 32 ∨ (Rect.block (s := S524288x16) S16384x16.size (cc0_transform_6 i) (hinb0_6 i)).WholeWords (EltTy.packing .f32)

variable [Facts₀]

def dot_S4096x32_S128x32_S4096x128_1_1_0_0_n_n : DotDims S4096x32 S128x32 S4096x128 where
  lhsContracting := [1]
  rhsContracting := [1]
  lhsNonContracting := [0]
  rhsNonContracting := [0]
  lhsBatch := []
  rhsBatch := []
  wf := dot_S4096x32_S128x32_S4096x128_1_1_0_0_n_n_wf
def dot_S4096x128_S128x128_S4096x128_1_1_0_0_n_n : DotDims S4096x128 S128x128 S4096x128 where
  lhsContracting := [1]
  rhsContracting := [1]
  lhsNonContracting := [0]
  rhsNonContracting := [0]
  lhsBatch := []
  rhsBatch := []
  wf := dot_S4096x128_S128x128_S4096x128_1_1_0_0_n_n_wf
def dot_S4096x128_S16x128_S4096x16_1_1_0_0_n_n : DotDims S4096x128 S16x128 S4096x16 where
  lhsContracting := [1]
  rhsContracting := [1]
  lhsNonContracting := [0]
  rhsNonContracting := [0]
  lhsBatch := []
  rhsBatch := []
  wf := dot_S4096x128_S16x128_S4096x16_1_1_0_0_n_n_wf

abbrev win0_0 : Pipeline.Window sig grid0 :=
  Pipeline.Window.ofSpec (Memref.whole main_arg0) S16384x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S16x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S16384x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S524288x32 : Shape := ⟨2, ![524288, 32]⟩
abbrev S55296 : Shape := ⟨1, ![55296]⟩
abbrev S4096 : Shape := ⟨1, ![4096]⟩
abbrev S128x32 : Shape := ⟨2, ![128, 32]⟩
abbrev S16384 : Shape := ⟨1, ![16384]⟩
abbrev S128x128 : Shape := ⟨2, ![128, 128]⟩
abbrev S2048 : Shape := ⟨1, ![2048]⟩
abbrev S16x128 : Shape := ⟨2, ![16, 128]⟩
abbrev S524288x128 : Shape := ⟨2, ![524288, 128]⟩
abbrev S_ : Shape := ⟨0, ![]⟩
abbrev S524288x16 : Shape := ⟨2, ![524288, 16]⟩

abbrev nBuf : Space → Nat
  | .hbm => 29
  | .vmem => 0
  | .smem => 0
  | _ => 0

abbrev bufTy : (tb : Table) → Fin (tcTables nBuf tb) → BufTy
  | .hbm, ⟨0, _⟩ => ⟨S524288x32, .f32⟩
  | .hbm, ⟨1, _⟩ => ⟨S55296, .f32⟩
  | .hbm, ⟨2, _⟩ => ⟨S4096, .f32⟩
  | .hbm, ⟨3, _⟩ => ⟨S128x32, .f32⟩
  | .hbm, ⟨4, _⟩ => ⟨S16384, .f32⟩
  | .hbm, ⟨5, _⟩ => ⟨S128x128, .f32⟩
  | .hbm, ⟨6, _⟩ => ⟨S16384, .f32⟩
  | .hbm, ⟨7, _⟩ => ⟨S128x128, .f32⟩
  | .hbm, ⟨8, _⟩ => ⟨S16384, .f32⟩
  | .hbm, ⟨9, _⟩ => ⟨S128x128, .f32⟩
  | .hbm, ⟨10, _⟩ => ⟨S2048, .f32⟩
  | .hbm, ⟨11, _⟩ => ⟨S16x128, .f32⟩
  | .hbm, ⟨12, _⟩ => ⟨S524288x128, .f32⟩
  | .hbm, ⟨13, _⟩ => ⟨S_, .f32⟩
  | .hbm, ⟨14, _⟩ => ⟨S524288x128, .f32⟩
  | .hbm, ⟨15, _⟩ => ⟨S524288x128, .f32⟩
  | .hbm, ⟨16, _⟩ => ⟨S524288x128, .f32⟩
  | .hbm, ⟨17, _⟩ => ⟨S_, .f32⟩
  | .hbm, ⟨18, _⟩ => ⟨S524288x128, .f32⟩
  | .hbm, ⟨19, _⟩ => ⟨S524288x128, .f32⟩
  | .hbm, ⟨20, _⟩ => ⟨S524288x128, .f32⟩
  | .hbm, ⟨21, _⟩ => ⟨S_, .f32⟩
  | .hbm, ⟨22, _⟩ => ⟨S524288x128, .f32⟩
  | .hbm, ⟨23, _⟩ => ⟨S524288x128, .f32⟩
  | .hbm, ⟨24, _⟩ => ⟨S524288x128, .f32⟩
  | .hbm, ⟨25, _⟩ => ⟨S_, .f32⟩
  | .hbm, ⟨26, _⟩ => ⟨S524288x128, .f32⟩
  | .hbm, ⟨27, _⟩ => ⟨S524288x128, .f32⟩
  | .hbm, ⟨28, _⟩ => ⟨S524288x16, .f32⟩
  | _, _ => ⟨S524288x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_cst : Ref sig .tc := ⟨.hbm, 13, rfl⟩
abbrev main_call0_v0 : Ref sig .tc := ⟨.hbm, 14, rfl⟩
abbrev main_v11 : Ref sig .tc := ⟨.hbm, 15, rfl⟩
abbrev main_v12 : Ref sig .tc := ⟨.hbm, 16, rfl⟩
abbrev main_call1_cst : Ref sig .tc := ⟨.hbm, 17, rfl⟩
abbrev main_call1_v0 : Ref sig .tc := ⟨.hbm, 18, rfl⟩
abbrev main_v13 : Ref sig .tc := ⟨.hbm, 19, rfl⟩
abbrev main_v14 : Ref sig .tc := ⟨.hbm, 20, rfl⟩
abbrev main_call2_cst : Ref sig .tc := ⟨.hbm, 21, rfl⟩
abbrev main_call2_v0 : Ref sig .tc := ⟨.hbm, 22, rfl⟩
abbrev main_v15 : Ref sig .tc := ⟨.hbm, 23, rfl⟩
abbrev main_v16 : Ref sig .tc := ⟨.hbm, 24, rfl⟩
abbrev main_call3_cst : Ref sig .tc := ⟨.hbm, 25, rfl⟩
abbrev main_call3_v0 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  slices_S55296_S4096_0 : S55296.Slices ![0] S4096
  shapeCasts_S4096_S128x32 : S4096.ShapeCasts S128x32
  slices_S55296_S16384_4096 : S55296.Slices ![4096] S16384
  shapeCasts_S16384_S128x128 : S16384.ShapeCasts S128x128
  slices_S55296_S16384_20480 : S55296.Slices ![20480] S16384
  slices_S55296_S16384_36864 : S55296.Slices ![36864] S16384
  slices_S55296_S2048_53248 : S55296.Slices ![53248] S2048
  shapeCasts_S2048_S16x128 : S2048.ShapeCasts S16x128
  bcast_S_S524288x128 : S_.BroadcastsInDim S524288x128 (![] : Fin 0 → Fin S524288x128.rank)
  dot_S524288x32_S128x32_S524288x128_1_1_0_0_n_n_wf : DotDims.WF S524288x32 S128x32 S524288x128 [1] [1] [0] [0] [] []
  dot_S524288x128_S128x128_S524288x128_1_1_0_0_n_n_wf : DotDims.WF S524288x128 S128x128 S524288x128 [1] [1] [0] [0] [] []
  dot_S524288x128_S16x128_S524288x16_1_1_0_0_n_n_wf : DotDims.WF S524288x128 S16x128 S524288x16 [1] [1] [0] [0] [] []

variable [Facts₀]

def dot_S524288x32_S128x32_S524288x128_1_1_0_0_n_n : DotDims S524288x32 S128x32 S524288x128 where
  lhsContracting := [1]
  rhsContracting := [1]
  lhsNonContracting := [0]
  rhsNonContracting := [0]
  lhsBatch := []
  rhsBatch := []
  wf := dot_S524288x32_S128x32_S524288x128_1_1_0_0_n_n_wf
def dot_S524288x128_S128x128_S524288x128_1_1_0_0_n_n : DotDims S524288x128 S128x128 S524288x128 where
  lhsContracting := [1]
  rhsContracting := [1]
  lhsNonContracting := [0]
  rhsNonContracting := [0]
  lhsBatch := []
  rhsBatch := []
  wf := dot_S524288x128_S128x128_S524288x128_1_1_0_0_n_n_wf
def dot_S524288x128_S16x128_S524288x16_1_1_0_0_n_n : DotDims S524288x128 S16x128 S524288x16 where
  lhsContracting := [1]
  rhsContracting := [1]
  lhsNonContracting := [0]
  rhsNonContracting := [0]
  lhsBatch := []
  rhsBatch := []
  wf := dot_S524288x128_S16x128_S524288x16_1_1_0_0_n_n_wf

class Facts : Prop extends Facts₀ where

variable [Facts]
-- ==== Proof.LibDenseRows.lean ====
import Idealize.ShloMosaic.PureOps.Ideal
import Idealize.ShloMosaic.PureOps.Ideal.Laws
import Idealize.ShloMosaic.Lib.ValueIdx

/-!
# A matrix times a transposed matrix, row by row, over the extended reals

`dense X W` is the product `X · Wᵀ` of an `M × K` array with an `N × K` array: entry `(a, n)` is
`∑ k, X (a, k) * W (n, k)`. `relu` is the entrywise maximum with zero. Both act on each row of `X`
by itself: two arrays (of any numbers of rows) that agree on one row of each give results that
agree on that row (`dense_row`, `relu_row`). No law of the extended reals beyond reading a sum term
by term is used, so nothing here asks the entries to be finite.

The matrix unit's product into a zero accumulator and the host's `dot_general`, both contracting the
last axis of each operand (the dimension numbers `DotDims.transposedRhs`), are `dense` of their
operands at the ideal values (`matmul_zero_eq_dense`, `dotGeneral_eq_dense`); the entrywise maximum
with a splat of a zero pattern is `relu` (`maximumf_zero_eq_relu`).
-/

noncomputable section

namespace Cert.DenseRows

open Idealize.ShloMosaic Idealize.ShloMosaic.ValueIdx

/-- `X · Wᵀ`: entry `(a, n)` is the sum over `k` of `X (a, k) * W (n, k)`. -/
def dense {M K N : ℕ} (X : (⟨2, ![M, K]⟩ : Shape).Idx → EReal) (W : (⟨2, ![N, K]⟩ : Shape).Idx → EReal) :
    (⟨2, ![M, N]⟩ : Shape).Idx → EReal :=
  fun j => ∑ k : Fin K, X (ix2 (j 0) k) * W (ix2 (j 1) k)

/-- The entrywise maximum with zero. -/
def relu {s : Shape} (X : s.Idx → EReal) : s.Idx → EReal := fun j => max (X j) 0

theorem dense_apply {M K N : ℕ} (X : (⟨2, ![M, K]⟩ : Shape).Idx → EReal) (W : (⟨2, ![N, K]⟩ : Shape).Idx → EReal)
    (a : Fin M) (n : Fin N) : dense X W (ix2 a n) = ∑ k : Fin K, X (ix2 a k) * W (ix2 n k) := rfl

theorem relu_apply {s : Shape} (X : s.Idx → EReal) (j : s.Idx) : relu X j = max (X j) 0 := rfl

/-- Row `a` of `X · Wᵀ` is a function of row `a` of `X` alone. -/
theorem dense_row {M M' K N : ℕ} (X : (⟨2, ![M, K]⟩ : Shape).Idx → EReal) (X' : (⟨2, ![M', K]⟩ : Shape).Idx → EReal)
    (W : (⟨2, ![N, K]⟩ : Shape).Idx → EReal) (a : Fin M) (a' : Fin M')
    (h : ∀ k : Fin K, X (ix2 a k) = X' (ix2 a' k)) (n : Fin N) :
    dense X W (ix2 a n) = dense X' W (ix2 a' n) := by
  rw [dense_apply, dense_apply]
  exact Finset.sum_congr rfl fun k _ => by rw [h k]

/-- So is row `a` of the entrywise maximum with zero. -/
theorem relu_row {M M' K : ℕ} (X : (⟨2, ![M, K]⟩ : Shape).Idx → EReal) (X' : (⟨2, ![M', K]⟩ : Shape).Idx → EReal)
    (a : Fin M) (a' : Fin M') (h : ∀ k : Fin K, X (ix2 a k) = X' (ix2 a' k)) (k : Fin K) :
    relu X (ix2 a k) = relu X' (ix2 a' k) := by
  rw [relu_apply, relu_apply, h k]

/-! ## The contraction of the last axis of both operands, as a sum over that axis's coordinate -/

/-- With the dimension numbers `transposedRhs` the left operand's row is the result's row … -/
theorem lhsIdx_transposedRhs_0 {M K N : ℕ} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- … the right operand's row is the result's column … -/
theorem rhsIdx_transposedRhs_0 {M K N : ℕ} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- … and both operands' columns are the contraction coordinate: the left operand is read at (row, `k`) … -/
theorem lhsIdx_transposedRhs {M K N : ℕ} (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  refine Fin.ext ?_
  match a with
  | ⟨0, _⟩ => exact lhsIdx_transposedRhs_0 j _
  | ⟨1, _⟩ => exact ((DotDims.transposedRhs M K N).lhsIdx_val_of_single rfl j _).trans hk

/-- … and the right operand at (column, `k`). -/
theorem rhsIdx_transposedRhs {M K N : ℕ} (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  refine Fin.ext ?_
  match a with
  | ⟨0, _⟩ => exact rhsIdx_transposedRhs_0 j _
  | ⟨1, _⟩ => exact ((DotDims.transposedRhs M K N).rhsIdx_val_of_single rfl j _).trans hk

/-- The textbook contraction with those dimension numbers is `dense`. -/
theorem contraction_transposedRhs {M K N : ℕ} (l : (⟨2, ![M, K]⟩ : Shape).Idx → EReal) (r : (⟨2, ![N, K]⟩ : Shape).Idx → EReal)
    (j : (⟨2, ![M, N]⟩ : Shape).Idx) :
    ∑ q : (DotDims.transposedRhs M K N).contr.Idx,
        l ((DotDims.transposedRhs M K N).lhsIdx j q) * r ((DotDims.transposedRhs M K N).rhsIdx j q) = dense l r j := by
  rw [← Equiv.sum_comp (contrEquiv1 (DotDims.transposedRhs M K N) K rfl rfl).symm]
  exact Finset.sum_congr rfl fun k _ => by rw [lhsIdx_transposedRhs, rhsIdx_transposedRhs]; rfl

/-- The matrix unit's product into the zero splat, contracting the last axis of both operands, is `dense`
    at the ideal values (whatever the operands' formats). `hd` is `rfl` for a printed record with those lists. -/
theorem matmul_zero_eq_dense {M K N : ℕ} {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) :
    matmul d prec l r (constant (F := Ideal) ⟨2, ![M, N]⟩ .f32 0x00000000#32) = dense l r := by
  subst hd
  funext j
  exact (Ideal.matmul_constant_zero_apply _ prec l r j).trans (contraction_transposedRhs l r j)

/-- The host's `dot_general` with the same dimension numbers likewise. -/
theorem dotGeneral_eq_dense {M K N : ℕ} {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) :
    Host.dotGeneral d prec l r = dense l r := by
  subst hd
  funext j
  exact (Ideal.dotGeneral_apply _ prec .single l r j).trans (contraction_transposedRhs l r j)

/-- The entrywise maximum with an array that is zero everywhere is `relu`. -/
theorem maximumf_zero_eq_relu {s : Shape} {φ : FTy} (x z : FVec Ideal s φ) (hz : ∀ j, z j = 0) :
    maximumf x z = relu x := by
  funext j
  show max (x j) (z j) = max (x j) 0
  rw [hz j]

end Cert.DenseRows

end
-- ==== Proof.MlpSpec.lean ====
import proofs.«102813_j5669356834525_2_alg».proof.Proof.LibDenseRows

/-!
# The network both programs compute

Four hidden layers `h ↦ relu (h · Wᵀ)` (widths 32 → 128 → 128 → 128 → 128) and a last layer without
activation (128 → 16), applied to every row of the input: `mlp W0 W1 W2 W3 W4 X`, for an input of any
number of rows. Each layer acts on a row by itself, so row `a` of the result is a function of row
`a` of the input alone (`mlp_row`): that is what lets a result computed from a block of rows be
read as the result computed from the whole array.
-/

noncomputable section

namespace Cert.Mlp

open Idealize.ShloMosaic Idealize.ShloMosaic.ValueIdx Cert.DenseRows

/-- The multilayer perceptron on `M` rows, as compositions of `X ↦ X · Wᵀ` and the maximum with zero. -/
def mlp {M : ℕ} (W0 : (⟨2, ![128, 32]⟩ : Shape).Idx → EReal) (W1 W2 W3 : (⟨2, ![128, 128]⟩ : Shape).Idx → EReal)
    (W4 : (⟨2, ![16, 128]⟩ : Shape).Idx → EReal) (X : (⟨2, ![M, 32]⟩ : Shape).Idx → EReal) :
    (⟨2, ![M, 16]⟩ : Shape).Idx → EReal :=
  dense (relu (dense (relu (dense (relu (dense (relu (dense X W0)) W1)) W2)) W3)) W4

/-- Row `a` of the network's result depends on row `a` of its input only: inputs of any two heights that
    agree on a row of each give results that agree there. -/
theorem mlp_row {M M' : ℕ} (W0 : (⟨2, ![128, 32]⟩ : Shape).Idx → EReal) (W1 W2 W3 : (⟨2, ![128, 128]⟩ : Shape).Idx → EReal)
    (W4 : (⟨2, ![16, 128]⟩ : Shape).Idx → EReal) (X : (⟨2, ![M, 32]⟩ : Shape).Idx → EReal)
    (X' : (⟨2, ![M', 32]⟩ : Shape).Idx → EReal) (a : Fin M) (a' : Fin M')
    (h : ∀ k : Fin 32, X (ix2 a k) = X' (ix2 a' k)) (n : Fin 16) :
    mlp W0 W1 W2 W3 W4 X (ix2 a n) = mlp W0 W1 W2 W3 W4 X' (ix2 a' n) :=
  dense_row _ _ W4 a a' (relu_row _ _ a a' (dense_row _ _ W3 a a' (relu_row _ _ a a' (dense_row _ _ W2 a a'
    (relu_row _ _ a a' (dense_row _ _ W1 a a' (relu_row _ _ a a' (dense_row _ _ W0 a a' h)))))))) n

/-! ## The weight matrices inside the flat parameter vector -/

/-- The first layer's `128 × 32` matrix: positions `0 … 4095` of the parameter vector, row-major. -/
def weight0 (w : (⟨1, ![55296]⟩ : Shape).Idx → EReal) : (⟨2, ![128, 32]⟩ : Shape).Idx → EReal :=
  shapeCast ⟨2, ![128, 32]⟩ (extractStridedSlice ⟨1, ![4096]⟩ ![0] w (by decide)) (by decide)
/-- The second layer's `128 × 128` matrix: positions `4096 … 20479`. -/
def weight1 (w : (⟨1, ![55296]⟩ : Shape).Idx → EReal) : (⟨2, ![128, 128]⟩ : Shape).Idx → EReal :=
  shapeCast ⟨2, ![128, 128]⟩ (extractStridedSlice ⟨1, ![16384]⟩ ![4096] w (by decide)) (by decide)
/-- The third layer's: positions `20480 … 36863`. -/
def weight2 (w : (⟨1, ![55296]⟩ : Shape).Idx → EReal) : (⟨2, ![128, 128]⟩ : Shape).Idx → EReal :=
  shapeCast ⟨2, ![128, 128]⟩ (extractStridedSlice ⟨1, ![16384]⟩ ![20480] w (by decide)) (by decide)
/-- The fourth layer's: positions `36864 … 53247`. -/
def weight3 (w : (⟨1, ![55296]⟩ : Shape).Idx → EReal) : (⟨2, ![128, 128]⟩ : Shape).Idx → EReal :=
  shapeCast ⟨2, ![128, 128]⟩ (extractStridedSlice ⟨1, ![16384]⟩ ![36864] w (by decide)) (by decide)
/-- The last layer's `16 × 128` matrix: positions `53248 … 55295`. -/
def weight4 (w : (⟨1, ![55296]⟩ : Shape).Idx → EReal) : (⟨2, ![16, 128]⟩ : Shape).Idx → EReal :=
  shapeCast ⟨2, ![16, 128]⟩ (extractStridedSlice ⟨1, ![2048]⟩ ![53248] w (by decide)) (by decide)

/-- THE RESULT both programs end with: the network with its five matrices cut out of the parameter vector `w`,
    applied to the `524288` rows of the input `x`. -/
def network (w : (⟨1, ![55296]⟩ : Shape).Idx → EReal) (x : (⟨2, ![524288, 32]⟩ : Shape).Idx → EReal) :
    (⟨2, ![524288, 16]⟩ : Shape).Idx → EReal :=
  mlp (M := 524288) (weight0 w) (weight1 w) (weight2 w) (weight3 w) (weight4 w) x

end Cert.Mlp

end
-- ==== Proof.KernelPayload.lean ====
import proofs.«102813_j5669356834525_2_alg».proof.Proof.Gen.KernelIdeal.Skeleton
import proofs.«102813_j5669356834525_2_alg».proof.Proof.MlpSpec
import Idealize.ShloMosaic.Lib.Pipeline.Value

/-!
# What one trip of the kernel's inner loop stores

A trip takes 4096 rows of the staged input block, and stores the network applied to them: five matrix
products into zero accumulators, each contracting the last axis of both operands, with the maximum with
zero between them. At the ideal values the changes of float format and the same-shape casts are the
identity, so the stored value is `mlp` of the five weight blocks and those 4096 rows.
-/

noncomputable section

namespace Cert.KernelIdeal.Payload

open Idealize.ShloMosaic Idealize.ShloMosaic.ValueIdx Cert.KernelIdeal Cert.DenseRows Cert.Mlp

/-- The value a trip stores is the network on the trip's rows. -/
theorem pay_eq (v0 : Vec Ideal S128x32 .f32) (v3 v6 v9 : Vec Ideal S128x128 .f32) (v12 : Vec Ideal S16x128 .f32)
    (v19 : Vec Ideal S4096x32 .f32) :
    Gen.k0_pay1 (F := Ideal) v0 v3 v6 v9 v12 v19 = mlp v0 v3 v6 v9 v12 v19 := by
  have htr : ∀ {s : Shape} {φ ψ : FTy} (a : FVec Ideal s φ) (h : ψ.bits < φ.bits), truncf ψ a h = a := fun _ _ => rfl
  have hz : ∀ j : S4096x128.Idx, broadcast S4096x128 (Scalar.ofBits (F := Ideal) .bf16 0x0000#16) j = 0 :=
    fun _ => IdealRules.sign_bit.ideal_zero .bf16
  unfold Gen.k0_pay1 mlp
  dsimp only
  rw [matmul_zero_eq_dense (M := 4096) (K := 128) (N := 16) dot_S4096x128_S16x128_S4096x16_1_1_0_0_n_n rfl,
    matmul_zero_eq_dense (M := 4096) (K := 128) (N := 128) dot_S4096x128_S128x128_S4096x128_1_1_0_0_n_n rfl,
    matmul_zero_eq_dense (M := 4096) (K := 32) (N := 128) dot_S4096x32_S128x32_S4096x128_1_1_0_0_n_n rfl]
  rw [matmul_zero_eq_dense (M := 4096) (K := 128) (N := 128) dot_S4096x128_S128x128_S4096x128_1_1_0_0_n_n rfl,
    matmul_zero_eq_dense (M := 4096) (K := 128) (N := 128) dot_S4096x128_S128x128_S4096x128_1_1_0_0_n_n rfl]
  simp only [shapeCast_self, htr]
  rw [maximumf_zero_eq_relu _ _ hz, maximumf_zero_eq_relu _ _ hz, maximumf_zero_eq_relu _ _ hz,
    maximumf_zero_eq_relu _ _ hz]

end Cert.KernelIdeal.Payload

end
-- ==== Proof.BlockBody.lean ====
import proofs.«102813_j5669356834525_2_alg».proof.Proof.Gen.KernelIdeal.Frame
import proofs.«102813_j5669356834525_2_alg».proof.Proof.KernelPayload

/-!
# What the kernel's body leaves in the output block

The body runs four trips; trip `k` reads rows `4096 k … 4096 k + 4095` of the staged `16384 × 32` input
block and stores, at the same rows of the `16384 × 16` output block, the network of those rows. Because
the network acts on each row by itself (`Cert.Mlp.mlp_row`), every one of the four stores is the
restriction, to its rows, of ONE function of the output block's index: the network of the whole input
block. The four stores tile the output block, so that function is what the block holds afterwards.
-/

noncomputable section

namespace Cert.KernelIdeal.Block

open Idealize.ShloMosaic Idealize.ShloMosaic.TcCoe Idealize.ShloMosaic.ValueIdx Idealize.SL.Sem
open Cert.KernelIdeal Cert.KernelIdeal.Gen Cert.DenseRows Cert.Mlp

section AnyInstance
variable {F : FTy → Type} [FloatOps F]

/-- The stores of the whole body are the stores of its loop's four trips, over the weights as loaded and the
    input block as staged. -/
theorem run_pieces (c : Dev nD) (i : grid0.Coords) (arg1 : Memref sig .tc .vmem S16384x32 .f32) (harg1 : arg1.IsWhole) (arg2 : Memref sig .tc .vmem S128x32 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S16x128 .f32) (harg6 : arg6.IsWhole) (arg7 : Memref sig .tc .vmem S16384x16 .f32) (harg7 : arg7.IsWhole)
    (x0 : Vec F S16384x32 .f32) (x1 : Vec F S128x32 .f32) (x2 : Vec F S128x128 .f32) (x3 : Vec F S128x128 .f32) (x4 : Vec F S128x128 .f32) (x5 : Vec F S16x128 .f32) :
    (kernelRun0_A c i arg1 harg1 arg2 harg2 arg3 harg3 arg4 harg4 arg5 harg5 arg6 harg6 arg7 harg7 x0 x1 x2 x3 x4 x5).1
      = pb_k0_t1 (F := F) Variants.none c none i arg1 harg1 arg2 harg2 arg3 harg3 arg4 harg4 arg5 harg5 arg6 harg6 arg7 harg7
          (View.readAt (Elt F) arg2.view (Rect.unit ![0, 0] S128x32.size inb_S128x32_S128x32_0_0).toLoadRect (harg2.unread x1))
          (View.readAt (Elt F) arg3.view (Rect.unit ![0, 0] S128x128.size inb_S128x128_S128x128_0_0).toLoadRect (harg3.unread x2))
          (View.readAt (Elt F) arg4.view (Rect.unit ![0, 0] S128x128.size inb_S128x128_S128x128_0_0).toLoadRect (harg4.unread x3))
          (View.readAt (Elt F) arg5.view (Rect.unit ![0, 0] S128x128.size inb_S128x128_S128x128_0_0).toLoadRect (harg5.unread x4))
          (View.readAt (Elt F) arg6.view (Rect.unit ![0, 0] S16x128.size inb_S16x128_S16x128_0_0).toLoadRect (harg6.unread x5))
          (harg1.unread x0) k0_t1_loop.trips := by
  unfold kernelRun0_A
  rfl

/-- Trip `k` makes one store: at its rows of the output block, the stored value computed from its rows of the
    input block. -/
theorem trip_piece (𝒱 : Variants) (bd : Option 𝒱.V) (c : Dev nD) (i : grid0.Coords) (arg1 : Memref sig .tc .vmem S16384x32 .f32) (harg1 : arg1.IsWhole) (arg2 : Memref sig .tc .vmem S128x32 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S16x128 .f32) (harg6 : arg6.IsWhole) (arg7 : Memref sig .tc .vmem S16384x16 .f32) (harg7 : arg7.IsWhole)
    (v0 : Vec F S128x32 .f32) (v3 v6 v9 : Vec F S128x128 .f32) (v12 : Vec F S16x128 .f32)
    (X : BufTy.Contents (Elt F) arg1.view.ty) (k : Fin k0_t1_loop.trips) :
    tripL_k0_t1 (F := F) 𝒱 c bd i arg1 harg1 arg2 harg2 arg3 harg3 arg4 harg4 arg5 harg5 arg6 harg6 arg7 harg7 v0 v3 v6 v9 v12 X k
      = [⟨Rect.unit (s := S16384x16) (k0_off2 k) S4096x16.size (k0_off2_inb k),
          k0_pay1 v0 v3 v6 v9 v12 (View.readAt (Elt F) arg1.view (Rect.unit (s := S16384x32) (k0_off1 k) S4096x32.size (k0_off1_inb k)).toLoadRect X)⟩] := by
  unfold tripL_k0_t1 trip_k0_t1
  rfl

/-- A load of a whole staging buffer reads the contents it was staged with. -/
theorem load_whole {S : Shape} {e : EltTy} (M : Memref sig .tc .vmem S e) (hM : M.IsWhole) (x : Vec F S e)
    {off : Fin S.rank → Nat} (h : off = fun _ => 0) (inb : ∀ a, off a + S.size a ≤ S.size a) :
    View.readAt (Elt F) M.view (Rect.unit off S.size inb).toLoadRect (hM.unread x) = x := by
  rw [View.readAt_eq_ld, hM.read_unread, View.ld_unit_zero h]

end AnyInstance

theorem zero2 : (![0, 0] : Fin 2 → Nat) = fun _ => 0 := by
  funext a; match a with | ⟨0, _⟩ => rfl | ⟨1, _⟩ => rfl

/-- The network of rows `r … r + 4095` of the input block, at row `p`, is the network of the whole block at row
    `r + p`: the one fact about the mathematics that the tiling uses. -/
theorem rows_of_block (W0 : Vec Ideal S128x32 .f32) (W1 W2 W3 : Vec Ideal S128x128 .f32) (W4 : Vec Ideal S16x128 .f32)
    (X : Vec Ideal S16384x32 .f32) (r : ℕ) (o1 o2 : Fin 2 → ℕ) (h1 : o1 = ![r, 0]) (h2 : o2 = ![r, 0])
    (inb1 : ∀ a, o1 a + S4096x32.size a ≤ S16384x32.size a) (inb2 : ∀ a, o2 a + S4096x16.size a ≤ S16384x16.size a)
    (x : (⟨2, ![4096, 16]⟩ : Shape).Idx) :
    mlp (M := 4096) W0 W1 W2 W3 W4 (View.ld X (Rect.unit (s := S16384x32) o1 S4096x32.size inb1)) x
      = mlp (M := 16384) W0 W1 W2 W3 W4 X ((Rect.unit (s := S16384x16) o2 S4096x16.size inb2).emb x) := by
  subst h1 h2
  obtain ⟨p, n, rfl⟩ : ∃ (p : Fin 4096) (n : Fin 16), x = ix2 p n := ⟨x 0, x 1, eq_ix2 x⟩
  have hr : r + 4096 ≤ 16384 := inb1 0
  have hrow : r + p.val < 16384 := by have := p.isLt; omega
  have e2 : (Rect.unit (s := S16384x16) ![r, 0] S4096x16.size inb2).emb (ix2 p n) = ix2 (⟨r + p.val, hrow⟩ : Fin 16384) n := by
    funext a
    refine Fin.ext ?_
    match a with
    | ⟨0, _⟩ => show r + 1 * p.val = r + p.val; omega
    | ⟨1, _⟩ => show 0 + 1 * n.val = n.val; omega
  rw [e2]
  refine mlp_row W0 W1 W2 W3 W4 _ X p ⟨r + p.val, hrow⟩ (fun k => ?_) n
  show X ((Rect.unit (s := S16384x32) ![r, 0] S4096x32.size inb1).idx (ix2 p k)) = X (ix2 ⟨r + p.val, hrow⟩ k)
  refine congrArg X ?_
  funext a
  refine Fin.ext ?_
  match a with
  | ⟨0, _⟩ => show r + 1 * p.val = r + p.val; omega
  | ⟨1, _⟩ => show 0 + 1 * k.val = k.val; omega

/-- Every store of the first `n` trips is the network of the whole input block, restricted to the store's rows. -/
theorem pieces_are_blocks (c : Dev nD) (i : grid0.Coords) (arg1 : Memref sig .tc .vmem S16384x32 .f32) (harg1 : arg1.IsWhole) (arg2 : Memref sig .tc .vmem S128x32 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S16x128 .f32) (harg6 : arg6.IsWhole) (arg7 : Memref sig .tc .vmem S16384x16 .f32) (harg7 : arg7.IsWhole)
    (x0 : Vec Ideal S16384x32 .f32) (x1 : Vec Ideal S128x32 .f32) (x2 : Vec Ideal S128x128 .f32) (x3 : Vec Ideal S128x128 .f32) (x4 : Vec Ideal S128x128 .f32) (x5 : Vec Ideal S16x128 .f32) :
    ∀ n, n ≤ k0_t1_loop.trips →
      ∀ p ∈ pb_k0_t1 (F := Ideal) Variants.none c none i arg1 harg1 arg2 harg2 arg3 harg3 arg4 harg4 arg5 harg5 arg6 harg6 arg7 harg7 x1 x2 x3 x4 x5 (harg1.unread x0) n,
        ∀ x : p.1.shape.Idx, p.2 x = mlp (M := 16384) x1 x2 x3 x4 x5 x0 (p.1.emb x) := by
  intro n
  induction n with
  | zero => intro _ p hp; exact absurd hp List.not_mem_nil
  | succ n ih =>
    intro hn p hp x
    have hk : n < k0_t1_loop.trips := hn
    rw [show n + 1 = (⟨n, hk⟩ : Fin k0_t1_loop.trips).val + 1 from rfl, pb_k0_t1_succ, trip_piece] at hp
    rcases List.mem_append.mp hp with h | h
    · obtain rfl := List.mem_singleton.mp h
      show k0_pay1 x1 x2 x3 x4 x5 _ x = _
      rw [Cert.KernelIdeal.Payload.pay_eq, View.readAt_eq_ld, harg1.read_unread]
      exact rows_of_block x1 x2 x3 x4 x5 x0 (4096 * n) _ _ (k0_off1_eq ⟨n, hk⟩) (k0_off2_eq ⟨n, hk⟩) (k0_off1_inb ⟨n, hk⟩) (k0_off2_inb ⟨n, hk⟩) x
    · exact ih (Nat.le_of_lt hk) p h x

/-- THE BODY'S RESULT: after the body, the output block holds the network of the staged input block. -/
theorem body_result (c : Dev nD) (i : grid0.Coords) (arg1 : Memref sig .tc .vmem S16384x32 .f32) (harg1 : arg1.IsWhole) (arg2 : Memref sig .tc .vmem S128x32 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S16x128 .f32) (harg6 : arg6.IsWhole) (arg7 : Memref sig .tc .vmem S16384x16 .f32) (harg7 : arg7.IsWhole)
    (x0 : Vec Ideal S16384x32 .f32) (x1 : Vec Ideal S128x32 .f32) (x2 : Vec Ideal S128x128 .f32) (x3 : Vec Ideal S128x128 .f32) (x4 : Vec Ideal S128x128 .f32) (x5 : Vec Ideal S16x128 .f32) :
    out0_A_6 (F := Ideal) c i arg1 harg1 arg2 harg2 arg3 harg3 arg4 harg4 arg5 harg5 arg6 harg6 arg7 harg7 x0 x1 x2 x3 x4 x5 = mlp (M := 16384) x1 x2 x3 x4 x5 x0 := by
  unfold out0_A_6
  rw [View.read_writes_eq_canon _ _ _ (cover0_A_6 c i arg1 harg1 arg2 harg2 arg3 harg3 arg4 harg4 arg5 harg5 arg6 harg6 arg7 harg7 x0 x1 x2 x3 x4 x5)]
  funext y
  refine View.canon_apply_of_pieces (mlp (M := 16384) x1 x2 x3 x4 x5 x0) _ ?_ y (cover0_A_6 c i arg1 harg1 arg2 harg2 arg3 harg3 arg4 harg4 arg5 harg5 arg6 harg6 arg7 harg7 x0 x1 x2 x3 x4 x5 y)
  rw [run_pieces, load_whole arg2 harg2 x1 zero2, load_whole arg3 harg3 x2 zero2, load_whole arg4 harg4 x3 zero2,
    load_whole arg5 harg5 x4 zero2, load_whole arg6 harg6 x5 zero2]
  exact pieces_are_blocks c i arg1 harg1 arg2 harg2 arg3 harg3 arg4 harg4 arg5 harg5 arg6 harg6 arg7 harg7 x0 x1 x2 x3 x4 x5 _ (Nat.le_refl _)

end Cert.KernelIdeal.Block

end
-- ==== Proof.KernelNetwork.lean ====
import proofs.«102813_j5669356834525_2_alg».proof.Proof.Gen.KernelIdeal.Value
import proofs.«102813_j5669356834525_2_alg».proof.Proof.BlockBody
import Idealize.ShloMosaic.Lib.Pipeline.Value
import Idealize.ShloMosaic.Lib.StableHlo.Run

/-!
# The kernel's result array is the network

Grid point `t` (of 32) stages rows `16384 t … 16384 t + 16383` of the input and the five weight matrices whole
(the host sliced and reshaped them out of the parameter vector before the region), runs the body, and writes the
`16384 × 16` block back at the same rows of the result. The body leaves the network of the staged rows
(`Cert.KernelIdeal.Block.body_result`), and the network acts row by row, so block `t` of the result is block `t` of
the network of the whole input. The 32 blocks tile the result.
-/

noncomputable section

namespace Cert.KernelIdeal.Network

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.DenseRows Cert.Mlp

variable (m : (ℓ : Loc nD τ sig) → Buf (Elt Ideal) ℓ) (ρ : Dev nD → PrngReg)

/-- The index maps over the grid: the input's and the result's blocks move with the point along the rows, every
    weight block stays at the origin. -/
theorem index_facts : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## The weight matrices as the region finds them -/

theorem V_w0 (c : Dev nD) : (V m c main_v1 : S128x32.Idx → EReal) = weight0 (m ((c : Thread nD τ).loc main_arg1)) := by
  dsimp only [Gen.V, Gen.hostOps0]; after_results; rfl
theorem V_w1 (c : Dev nD) : (V m c main_v3 : S128x128.Idx → EReal) = weight1 (m ((c : Thread nD τ).loc main_arg1)) := by
  dsimp only [Gen.V, Gen.hostOps0]; after_results; rfl
theorem V_w2 (c : Dev nD) : (V m c main_v5 : S128x128.Idx → EReal) = weight2 (m ((c : Thread nD τ).loc main_arg1)) := by
  dsimp only [Gen.V, Gen.hostOps0]; after_results; rfl
theorem V_w3 (c : Dev nD) : (V m c main_v7 : S128x128.Idx → EReal) = weight3 (m ((c : Thread nD τ).loc main_arg1)) := by
  dsimp only [Gen.V, Gen.hostOps0]; after_results; rfl
theorem V_w4 (c : Dev nD) : (V m c main_v9 : S16x128.Idx → EReal) = weight4 (m ((c : Thread nD τ).loc main_arg1)) := by
  dsimp only [Gen.V, Gen.hostOps0]; after_results; rfl

/-! ## The staged blocks -/

/-- A weight window's block at any point is the whole matrix. -/
theorem iblk1 (c : Dev nD) (t : Fin cfg0.N) :
    (iblk m c 1 t : Vec Ideal S128x32 .f32) = weight0 (m ((c : Thread nD τ).loc main_arg1)) := by
  obtain ⟨-, -, -, -, e0, e1, -⟩ := index_facts t
  rw [← V_w0 m c]
  funext y
  unfold iblk
  rw [View.read_apply]
  show V m c main_v1 _ = V m c main_v1 y
  refine congrArg _ ?_
  funext a
  refine Fin.ext ?_
  match a with
  | ⟨0, _⟩ => show win0_1.index t (0 : Fin 2) * 128 + 1 * (y 0).val = (y 0).val; rw [e0]; omega
  | ⟨1, _⟩ => show win0_1.index t (1 : Fin 2) * 32 + 1 * (y 1).val = (y 1).val; rw [e1]; omega

theorem iblk2 (c : Dev nD) (t : Fin cfg0.N) :
    (iblk m c 2 t : Vec Ideal S128x128 .f32) = weight1 (m ((c : Thread nD τ).loc main_arg1)) := by
  obtain ⟨-, -, -, -, -, -, e0, e1, -⟩ := index_facts t
  rw [← V_w1 m c]
  funext y
  unfold iblk
  rw [View.read_apply]
  show V m c main_v3 _ = V m c main_v3 y
  refine congrArg _ ?_
  funext a
  refine Fin.ext ?_
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem iblk3 (c : Dev nD) (t : Fin cfg0.N) :
    (iblk m c 3 t : Vec Ideal S128x128 .f32) = weight2 (m ((c : Thread nD τ).loc main_arg1)) := by
  obtain ⟨-, -, -, -, -, -, -, -, e0, e1, -⟩ := index_facts t
  rw [← V_w2 m c]
  funext y
  unfold iblk
  rw [View.read_apply]
  show V m c main_v5 _ = V m c main_v5 y
  refine congrArg _ ?_
  funext a
  refine Fin.ext ?_
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem iblk4 (c : Dev nD) (t : Fin cfg0.N) :
    (iblk m c 4 t : Vec Ideal S128x128 .f32) = weight3 (m ((c : Thread nD τ).loc main_arg1)) := by
  obtain ⟨-, -, -, -, -, -, -, -, -, -, e0, e1, -⟩ := index_facts t
  rw [← V_w3 m c]
  funext y
  unfold iblk
  rw [View.read_apply]
  show V m c main_v7 _ = V m c main_v7 y
  refine congrArg _ ?_
  funext a
  refine Fin.ext ?_
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem iblk5 (c : Dev nD) (t : Fin cfg0.N) :
    (iblk m c 5 t : Vec Ideal S16x128 .f32) = weight4 (m ((c : Thread nD τ).loc main_arg1)) := by
  obtain ⟨-, -, -, -, -, -, -, -, -, -, -, -, e0, e1⟩ := index_facts t
  rw [← V_w4 m c]
  funext y
  unfold iblk
  rw [View.read_apply]
  show V m c main_v9 _ = V m c main_v9 y
  refine congrArg _ ?_
  funext a
  refine Fin.ext ?_
  match a with
  | ⟨0, _⟩ => show win0_5.index t (0 : Fin 2) * 16 + 1 * (y 0).val = (y 0).val; rw [e0]; omega
  | ⟨1, _⟩ => show win0_5.index t (1 : Fin 2) * 128 + 1 * (y 1).val = (y 1).val; rw [e1]; omega

/-- The input window's block at point `t` is rows `16384 t … 16384 t + 16383` of the input. -/
theorem iblk0_apply (c : Dev nD) (t : Fin cfg0.N) (p : Fin 16384) (k : Fin 32) (q : Fin 524288)
    (hq : q.val = 16384 * t.val + p.val) :
    (iblk m c 0 t : Vec Ideal S16384x32 .f32) (ix2 p k)
      = (m ((c : Thread nD τ).loc main_arg0) : S524288x32.Idx → EReal) (ix2 q k) := by
  obtain ⟨e0, e1, -⟩ := index_facts t
  unfold iblk
  rw [View.read_apply]
  show V m c main_arg0 _ = _
  rw [V_main_arg0]
  refine congrArg _ ?_
  funext a
  refine Fin.ext ?_
  match a with
  | ⟨0, _⟩ => show win0_0.index t (0 : Fin 2) * 16384 + 1 * p.val = q.val; rw [e0, hq]; omega
  | ⟨1, _⟩ => show win0_0.index t (1 : Fin 2) * 32 + 1 * k.val = k.val; rw [e1]; omega

/-! ## What each point writes back, and the whole array -/

/-- WHAT POINT `t` WRITES BACK is block `t` of the network of the two arguments. -/
theorem flushed_eq (c : Dev nD) (t : Fin cfg0.N) :
    (dats m 0 c).flushed 6 t = ((cfg0.win 6).blk t).view.read (Elt Ideal)
      (network (m ((c : Thread nD τ).loc main_arg1)) (m ((c : Thread nD τ).loc main_arg0))) := by
  have hN : t.val < 32 := Nat.lt_of_lt_of_eq (show t.val < grid0.N from t.isLt) N_0
  obtain ⟨-, -, e0, e1, -⟩ := index_facts t
  rw [flushed6_A, Cert.KernelIdeal.Block.body_result, iblk1, iblk2, iblk3, iblk4, iblk5]
  funext j
  obtain ⟨p, n, rfl⟩ : ∃ (p : Fin 16384) (n : Fin 16), j = ix2 p n := ⟨j 0, j 1, eq_ix2 j⟩
  have hrow : 16384 * t.val + p.val < 524288 := by have := p.isLt; omega
  rw [View.read_apply]
  have e : ((cfg0.win 6).blk t).view.emb (ix2 p n) = ix2 (⟨16384 * t.val + p.val, hrow⟩ : Fin 524288) n := by
    funext a
    refine Fin.ext ?_
    match a with
    | ⟨0, _⟩ => show win0_6.index t (0 : Fin 2) * 16384 + 1 * p.val = 16384 * t.val + p.val; rw [e0]; omega
    | ⟨1, _⟩ => show win0_6.index t (1 : Fin 2) * 16 + 1 * n.val = n.val; rw [e1]; omega
  rw [e]
  exact mlp_row _ _ _ _ _ _ _ p ⟨16384 * t.val + p.val, hrow⟩ (fun k => iblk0_apply m c t p k _ rfl) n

/-- An index of the result is in point `t`'s block iff its row is one of the point's rows. -/
theorem mem_blk (t : Fin cfg0.N) (i : S524288x16.Idx) :
    i ∈ ((cfg0.win 6).blk t).view.set ↔ ∀ a : Fin 2, win0_6.index t a * S16384x16.size a ≤ (i a).val ∧ (i a).val < win0_6.index t a * S16384x16.size a + S16384x16.size a := by
  show i ∈ ((View.whole main_v10).slice (win0_6.rect t)).set ↔ _
  rw [View.set_slice_whole, Rect.mem_set_unit]
  exact Iff.rfl

/-- THE RESULT ARRAY after the run is the network of the two arguments: row `r` is in the block of point `r / 16384`. -/
theorem final (c : Dev nD) : (dats m 0 c).arrAt 6 cfg0.N
    = network (m ((c : Thread nD τ).loc main_arg1)) (m ((c : Thread nD τ).loc main_arg0)) :=
  (dats m 0 c).arrAt_eq_of_cover 6 _ (fun t _ => flushed_eq m c t) fun i => by
    have h0 : (i 0).val < 524288 := (i 0).isLt
    have h1 : (i 1).val < 16 := (i 1).isLt
    have ht : (i 0).val / 16384 < cfg0.N := by show (i 0).val / 16384 < grid0.N; rw [N_0]; omega
    refine ⟨⟨(i 0).val / 16384, ht⟩, flush0_6 _, ?_⟩
    obtain ⟨-, -, e0, e1, -⟩ := index_facts ⟨(i 0).val / 16384, ht⟩
    rw [mem_blk]
    intro a
    match a with
    | ⟨0, _⟩ => show win0_6.index ⟨(i 0).val / 16384, ht⟩ (0 : Fin 2) * 16384 ≤ (i 0).val ∧ (i 0).val < win0_6.index ⟨(i 0).val / 16384, ht⟩ (0 : Fin 2) * 16384 + 16384; rw [e0]; show (i 0).val / 16384 * 16384 ≤ (i 0).val ∧ (i 0).val < (i 0).val / 16384 * 16384 + 16384; omega
    | ⟨1, _⟩ => show win0_6.index ⟨(i 0).val / 16384, ht⟩ (1 : Fin 2) * 16 ≤ (i 1).val ∧ (i 1).val < win0_6.index ⟨(i 0).val / 16384, ht⟩ (1 : Fin 2) * 16 + 16; rw [e1]; omega

/-- The kernel's run, read: the result array ends at the network of the two arguments, which end unchanged. -/
theorem run : θ_run defs (onTc (τ := τ) (main (F := Ideal))) ⟨m, fun _ => 0, ρ⟩ fun r => ∀ c : Dev nD,
      r.2.mem ((c : Thread nD τ).loc main_v10)
        = network (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Network

end
-- ==== Proof.RefNetwork.lean ====
import proofs.«102813_j5669356834525_2_alg».proof.Proof.Gen.ReferenceIdeal.Run
import proofs.«102813_j5669356834525_2_alg».proof.Proof.MlpSpec
import Idealize.ShloMosaic.Lib.Pipeline.Value

/-!
# The reference computes the network

The reference is, operation for operation, the network's definition: five `dot_general`s contracting the last
axis of both operands, with the maximum against a broadcast zero after each of the first four, on the five
matrices sliced out of the parameter vector and reshaped. At the ideal values each `dot_general` is `dense`, each
maximum with the zero array is `relu`.
-/

noncomputable section

namespace Cert.ReferenceIdeal.Network

open Idealize.ShloMosaic Idealize.ShloMosaic.ValueIdx Cert.ReferenceIdeal Cert.ReferenceIdeal.Gen Cert.DenseRows Cert.Mlp

/-- The array the reference's `relu` compares with is zero everywhere. -/
theorem zeros_apply (j : S524288x128.Idx) :
    broadcastInDim S524288x128 ![] bcast_S_S524288x128 (constant (F := Ideal) S_ .f32 0x00000000#32) j = 0 :=
  (broadcastInDim_apply _ bcast_S_S524288x128 (constant (F := Ideal) S_ .f32 0x00000000#32) j ix0 (fun a => a.elim0)).trans
    Ideal.ofBits_zero_f32

/-- The reference's chain of operations on any five matrices and any zero array is the network. -/
theorem chain_eq (x0 : FVec Ideal S524288x32 .f32) (w0 : FVec Ideal S128x32 .f32) (w1 w2 w3 : FVec Ideal S128x128 .f32)
    (w4 : FVec Ideal S16x128 .f32) (z : FVec Ideal S524288x128 .f32) (hz : ∀ j, z j = 0) :
    Host.dotGeneral dot_S524288x128_S16x128_S524288x16_1_1_0_0_n_n none
      (maximumf (Host.dotGeneral dot_S524288x128_S128x128_S524288x128_1_1_0_0_n_n none
        (maximumf (Host.dotGeneral dot_S524288x128_S128x128_S524288x128_1_1_0_0_n_n none
          (maximumf (Host.dotGeneral dot_S524288x128_S128x128_S524288x128_1_1_0_0_n_n none
            (maximumf (Host.dotGeneral dot_S524288x32_S128x32_S524288x128_1_1_0_0_n_n none x0 w0) z) w1) z) w2) z) w3) z) w4
      = mlp (M := 524288) w0 w1 w2 w3 w4 x0 := by
  rw [dotGeneral_eq_dense (M := 524288) (K := 128) (N := 16) dot_S524288x128_S16x128_S524288x16_1_1_0_0_n_n rfl,
    dotGeneral_eq_dense (M := 524288) (K := 128) (N := 128) dot_S524288x128_S128x128_S524288x128_1_1_0_0_n_n rfl,
    dotGeneral_eq_dense (M := 524288) (K := 128) (N := 128) dot_S524288x128_S128x128_S524288x128_1_1_0_0_n_n rfl,
    dotGeneral_eq_dense (M := 524288) (K := 128) (N := 128) dot_S524288x128_S128x128_S524288x128_1_1_0_0_n_n rfl,
    dotGeneral_eq_dense (M := 524288) (K := 32) (N := 128) dot_S524288x32_S128x32_S524288x128_1_1_0_0_n_n rfl,
    maximumf_zero_eq_relu _ _ hz, maximumf_zero_eq_relu _ _ hz, maximumf_zero_eq_relu _ _ hz, maximumf_zero_eq_relu _ _ hz]
  rfl

/-- THE REFERENCE'S RESULT, as its generated run states it, is the network of the two arguments. -/
theorem result_eq (x0 : FVec Ideal S524288x32 .f32) (x1 : FVec Ideal S55296 .f32) :
    Host.dotGeneral dot_S524288x128_S16x128_S524288x16_1_1_0_0_n_n none (maximumf (Host.dotGeneral dot_S524288x128_S128x128_S524288x128_1_1_0_0_n_n none (maximumf (Host.dotGeneral dot_S524288x128_S128x128_S524288x128_1_1_0_0_n_n none (maximumf (Host.dotGeneral dot_S524288x128_S128x128_S524288x128_1_1_0_0_n_n none (maximumf (Host.dotGeneral dot_S524288x32_S128x32_S524288x128_1_1_0_0_n_n none x0 (shapeCast _ (extractStridedSlice S4096 ![0] x1 slices_S55296_S4096_0) shapeCasts_S4096_S128x32)) (broadcastInDim S524288x128 ![] bcast_S_S524288x128 (constant S_ .f32 0x00000000#32))) (shapeCast _ (extractStridedSlice S16384 ![4096] x1 slices_S55296_S16384_4096) shapeCasts_S16384_S128x128)) (broadcastInDim S524288x128 ![] bcast_S_S524288x128 (constant S_ .f32 0x00000000#32))) (shapeCast _ (extractStridedSlice S16384 ![20480] x1 slices_S55296_S16384_20480) shapeCasts_S16384_S128x128)) (broadcastInDim S524288x128 ![] bcast_S_S524288x128 (constant S_ .f32 0x00000000#32))) (shapeCast _ (extractStridedSlice S16384 ![36864] x1 slices_S55296_S16384_36864) shapeCasts_S16384_S128x128)) (broadcastInDim S524288x128 ![] bcast_S_S524288x128 (constant S_ .f32 0x00000000#32))) (shapeCast _ (extractStridedSlice S2048 ![53248] x1 slices_S55296_S2048_53248) shapeCasts_S2048_S16x128)
      = network x1 x0 :=
  chain_eq x0 _ _ _ _ _ _ zeros_apply

end Cert.ReferenceIdeal.Network

end
-- ==== Proof.lean ====
/-
  A four-hidden-layer perceptron (32 → 128 → 128 → 128 → 128 → 16, `relu` between, none at the end) over
  524288 rows, as a kernel and as plain `jnp`: both end with the same extended reals.

  THE MATHEMATICS. Write `dense X W = X · Wᵀ` (entry (a, n) is `∑ k, X (a, k) * W (n, k)`) and `relu` for the entrywise
  maximum with zero. With the five matrices `W0 … W4` cut row-major out of the flat parameter vector, both programs
  compute `network w x = dense (relu (dense (relu (dense (relu (dense (relu (dense x W0)) W1)) W2)) W3)) W4`.
  * The reference is that expression operation for operation (Proof/RefNetwork.lean): at the ideal values a
    `dot_general` contracting the last axis of both operands is `dense`, the maximum with a broadcast zero is `relu`.
  * The kernel works on 32 blocks of 16384 rows, and inside a block in four trips of 4096 rows; a trip stores the same
    expression of its own 4096 rows (Proof/KernelPayload.lean: the format changes to and from the 16-bit format are the
    identity on extended reals, the matrix unit's product into a zero accumulator is `dense`).
  * Every layer acts on each row by itself, so row `r` of `network w x` is a function of row `r` of `x` alone
    (`Cert.Mlp.mlp_row`): the network of a slab of rows is the slab of the network. Hence the four stores of a trip are
    restrictions of ONE function of the block index (Proof/BlockBody.lean), and the 32 blocks written back are
    restrictions of ONE function of the array index, `network w x`; they tile the result (Proof/KernelNetwork.lean).
  No law beyond reading sums term by term is used — nothing is distributed, cancelled or reordered — so the proof never
  needs the inputs to be finite: the equality holds on all extended reals, and the precondition is not opened.

  The three frame claims are the generated frames (the reference's is its generated run with the result dropped);
  `preserves` is `True`: the idealization rewrote nothing.
-/
import proofs.«102813_j5669356834525_2_alg».proof.Defs
import proofs.«102813_j5669356834525_2_alg».proof.Proof.Gen.Kernel
import proofs.«102813_j5669356834525_2_alg».proof.Proof.Gen.Kernel.Frame
import proofs.«102813_j5669356834525_2_alg».proof.Proof.Gen.KernelIdeal
import proofs.«102813_j5669356834525_2_alg».proof.Proof.Gen.KernelIdeal.Frame
import proofs.«102813_j5669356834525_2_alg».proof.Proof.Gen.KernelIdeal.Value
import proofs.«102813_j5669356834525_2_alg».proof.Proof.Gen.ReferenceIdeal
import proofs.«102813_j5669356834525_2_alg».proof.Proof.Gen.ReferenceIdeal.Run
import proofs.«102813_j5669356834525_2_alg».proof.Proof.Gen.Pre_finite_inputs
import proofs.«102813_j5669356834525_2_alg».proof.Proof.KernelNetwork
import proofs.«102813_j5669356834525_2_alg».proof.Proof.RefNetwork
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two arguments, the kernel's result array ends at the network of the arguments
    (Proof/KernelNetwork.lean) and so does the reference's (its generated run, then Proof/RefNetwork.lean). -/
theorem algebraic : Cert.algebraic_KernelIdeal_ReferenceIdeal := by
  intro m ρ m' ρ' _ hagree
  refine ⟨fun c => Cert.Mlp.network (m ((c.tc : Thread Cert.KernelIdeal.nD Cert.KernelIdeal.τ).loc Cert.KernelIdeal.main_arg1))
      (m ((c.tc : Thread Cert.KernelIdeal.nD Cert.KernelIdeal.τ).loc Cert.KernelIdeal.main_arg0)),
    Cert.KernelIdeal.Network.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.Network.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
